-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192x64 : Shape := ⟨2, ![8192, 64]⟩
abbrev S1x8192 : Shape := ⟨2, ![1, 8192]⟩
abbrev S128x64 : Shape := ⟨2, ![128, 64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x64 : S_.BroadcastsInDim S8192x64 (![] : Fin 0 → Fin S8192x64.rank)
  reducesTo_S8192x64_S_d0_1 : S8192x64.ReducesTo [0, 1] S_
  bcast_S_S1x8192 : S_.BroadcastsInDim S1x8192 (![] : Fin 0 → Fin S1x8192.rank)
  reducesTo_S1x8192_S_d0_1 : S1x8192.ReducesTo [0, 1] S_

variable [Facts]

def fn_part1 {F : FTy → Type} [FloatOps F] (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  main_v18

def fn {F : FTy → Type} [FloatOps F] (main_arg0 : FVec F S16x8192 .f32) (main_arg1 : FVec F S8192x8192 .f32) (main_arg2 : FVec F S8192x64 .f32) (main_arg3 : FVec F S1x8192 .f32) (main_arg4 : IVec S128x64 32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_v13 main_v16
-- ==== Kernel.lean ====
abbrev S16x8192 : Shape := ⟨2, ![16, 8192]⟩
abbrev S8192x8192 : Shape := ⟨2, ![8192, 8192]⟩
abbrev S8192x64 : Shape := ⟨2, ![8192, 64]⟩
abbrev S1x8192 : Shape := ⟨2, ![1, 8192]⟩
abbrev S128x64 : Shape := ⟨2, ![128, 64]⟩
abbrev S256x8192 : Shape := ⟨2, ![256, 8192]⟩
abbrev S256x64 : Shape := ⟨2, ![256, 64]⟩
abbrev S1x256 : Shape := ⟨2, ![1, 256]⟩
abbrev S16x256 : Shape := ⟨2, ![16, 256]⟩
abbrev S256x64x128 : Shape := ⟨3, ![256, 64, 128]⟩
abbrev S256x64x1 : Shape := ⟨3, ![256, 64, 1]⟩

abbrev nBuf : Space → Nat
  | .hbm => 6
  | .vmem => 9
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192x64, .f32⟩
  | .hbm, ⟨3, _⟩ => ⟨S1x8192, .f32⟩
  | .hbm, ⟨4, _⟩ => ⟨S128x64, .i32⟩
  | .hbm, ⟨5, _⟩ => ⟨S16x8192, .f32⟩
  | .local _ .vmem, ⟨0, _⟩ => ⟨S16x8192, .f32⟩
  | .local _ .vmem, ⟨1, _⟩ => ⟨S256x8192, .f32⟩
  | .local _ .vmem, ⟨2, _⟩ => ⟨S256x8192, .f32⟩
  | .local _ .vmem, ⟨3, _⟩ => ⟨S256x64, .f32⟩
  | .local _ .vmem, ⟨4, _⟩ => ⟨S256x64, .f32⟩
  | .local _ .vmem, ⟨5, _⟩ => ⟨S1x256, .f32⟩
  | .local _ .vmem, ⟨6, _⟩ => ⟨S1x256, .f32⟩
  | .local _ .vmem, ⟨7, _⟩ => ⟨S16x256, .f32⟩
  | .local _ .vmem, ⟨8, _⟩ => ⟨S16x256, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  inb_S256x64_S256x64_0_0 : ∀ a, (![0, 0] : Fin 2 → Nat) a + S256x64.size a ≤ S256x64.size a
  h_S256x64 : 0 < S256x64.numel
  shapeCasts_S256x8192_S256x64x128 : S256x8192.ShapeCasts S256x64x128
  shapeCasts_S256x64_S256x64x1 : S256x64.ShapeCasts S256x64x1
  broadcasts_S256x64x1_S256x64x128 : S256x64x1.Broadcasts S256x64x128
  shapeCasts_S256x64x128_S256x8192 : S256x64x128.ShapeCasts S256x8192
  bitsLt_bf16_f32 : FTy.bits .bf16 < FTy.bits .f32
  inb_S16x8192_S16x8192_0_0 : ∀ a, (![0, 0] : Fin 2 → Nat) a + S16x8192.size a ≤ S16x8192.size a
  h_S16x8192 : 0 < S16x8192.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x8192_S256x8192_S16x256_1_1_0_0_n_n_wf : DotDims.WF S16x8192 S256x8192 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x8192.size a
  hwx0_4 : ∀ i : grid0.Coords, EltTy.bits .f32 = 32 ∨ (Rect.block (s := S16x8192) S16x256.size (cc0_transform_4 i) (hinb0_4 i)).WholeWords (EltTy.packing .f32)

variable [Facts₀]

def dot_S16x8192_S256x8192_S16x256_1_1_0_0_n_n : DotDims S16x8192 S256x8192 S16x256 where
  lhsContracting := [1]
  rhsContracting := [1]
  lhsNonContracting := [0]
  rhsNonContracting := [0]
  lhsBatch := []
  rhsBatch := []
  wf := dot_S16x8192_S256x8192_S16x256_1_1_0_0_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192x64 : Shape := ⟨2, ![8192, 64]⟩
abbrev S1x8192 : Shape := ⟨2, ![1, 8192]⟩
abbrev S128x64 : Shape := ⟨2, ![128, 64]⟩
abbrev S8192x64x128 : Shape := ⟨3, ![8192, 64, 128]⟩
abbrev S8192x64x1 : Shape := ⟨3, ![8192, 64, 1]⟩

abbrev nBuf : Space → Nat
  | .hbm => 13
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192x64, .f32⟩
  | .hbm, ⟨3, _⟩ => ⟨S1x8192, .f32⟩
  | .hbm, ⟨4, _⟩ => ⟨S128x64, .i32⟩
  | .hbm, ⟨5, _⟩ => ⟨S8192x64x128, .f32⟩
  | .hbm, ⟨6, _⟩ => ⟨S8192x64x1, .f32⟩
  | .hbm, ⟨7, _⟩ => ⟨S8192x64x128, .f32⟩
  | .hbm, ⟨8, _⟩ => ⟨S8192x64x128, .f32⟩
  | .hbm, ⟨9, _⟩ => ⟨S8192x8192, .f32⟩
  | .hbm, ⟨10, _⟩ => ⟨S16x8192, .f32⟩
  | .hbm, ⟨11, _⟩ => ⟨S16x8192, .f32⟩
  | .hbm, ⟨12, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S8192x8192_S8192x64x128 : S8192x8192.ShapeCasts S8192x64x128
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  bcast_S1x8192_S16x8192_0_1 : S1x8192.BroadcastsInDim S16x8192 (![0, 1] : Fin 2 → Fin S16x8192.rank)
  dot_S16x8192_S8192x8192_S16x8192_1_1_0_0_n_n_wf : DotDims.WF S16x8192 S8192x8192 S16x8192 [1] [1] [0] [0] [] []

variable [Facts₀]

def dot_S16x8192_S8192x8192_S16x8192_1_1_0_0_n_n : DotDims S16x8192 S8192x8192 S16x8192 where
  lhsContracting := [1]
  rhsContracting := [1]
  lhsNonContracting := [0]
  rhsNonContracting := [0]
  lhsBatch := []
  rhsBatch := []
  wf := dot_S16x8192_S8192x8192_S16x8192_1_1_0_0_n_n_wf

class Facts : Prop extends Facts₀ where

variable [Facts]
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Spec.lean ====
/-
  The function both programs compute: a linear layer whose weight matrix is stored with one scale per output row and
  per group of 128 consecutive input channels.

  For an activation matrix `x : [16, 8192]`, stored weights `w : [8192, 8192]`, scales `s : [8192, 64]` and a bias row
  `b : [1, 8192]`, the weight actually used at output row `o` and input channel `k` is `w (o, k) · s (o, k / 128)`,
  and the result at `(r, o)` is

      (∑ k, x (r, k) · (w (o, k) · s (o, k / 128))) + b (0, o)

  on the extended reals. Nothing here needs the entries to be finite: both programs form the same products, add them
  over the same index set and add the same bias entry, so no law beyond reindexing a sum is used.
-/
import Idealize.ShloMosaic.PureOps.Ideal
import Idealize.ShloMosaic.Lib.ValueIdx

noncomputable section

namespace Cert.Spec

open Idealize.ShloMosaic Idealize.ShloMosaic.ValueIdx

/-- The scale group of input channel `k`: channels `128 g, …, 128 g + 127` share the scale of group `g`. -/
def group (k : Fin 8192) : Fin 64 := ⟨k.val / 128, by have := k.isLt; omega⟩

/-- The position of input channel `k` inside its group. -/
def lane (k : Fin 8192) : Fin 128 := ⟨k.val % 128, Nat.mod_lt _ (by decide)⟩

theorem group_val (k : Fin 8192) : (group k).val = k.val / 128 := rfl

theorem lane_val (k : Fin 8192) : (lane k).val = k.val % 128 := rfl

/-- The layer's result, entry by entry, as one function of the four argument arrays. -/
def linear (x : (⟨2, ![16, 8192]⟩ : Shape).Idx → EReal) (w : (⟨2, ![8192, 8192]⟩ : Shape).Idx → EReal)
    (s : (⟨2, ![8192, 64]⟩ : Shape).Idx → EReal) (b : (⟨2, ![1, 8192]⟩ : Shape).Idx → EReal) :
    (⟨2, ![16, 8192]⟩ : Shape).Idx → EReal :=
  fun i => (∑ k : Fin 8192, x (ix2 (i 0) k) * (w (ix2 (i 1) k) * s (ix2 (i 1) (group k)))) + b (ix2 (0 : Fin 1) (i 1))

theorem linear_apply (x : (⟨2, ![16, 8192]⟩ : Shape).Idx → EReal) (w : (⟨2, ![8192, 8192]⟩ : Shape).Idx → EReal)
    (s : (⟨2, ![8192, 64]⟩ : Shape).Idx → EReal) (b : (⟨2, ![1, 8192]⟩ : Shape).Idx → EReal) (r : Fin 16) (o : Fin 8192) :
    linear x w s b (ix2 r o)
      = (∑ k : Fin 8192, x (ix2 r k) * (w (ix2 o k) * s (ix2 o (group k)))) + b (ix2 (0 : Fin 1) o) := rfl

end Cert.Spec

end
-- ==== Proof.BlockValue.lean ====
/-
  What the kernel body computes from one grid point's blocks, entry by entry.

  The body holds a `[256, 8192]` block of stored weights and the matching `[256, 64]` block of scales. It regroups the
  weights as `[256, 64, 128]` (row, group, position in the group), multiplies each by its row's and group's scale, and
  regroups back: entry `(q, k)` of the dequantized block is `w (q, k) · s (q, k / 128)`. The change of float format on
  the way into the matrix unit is the identity on exact values. The product `x · wᵀ` into a zero accumulator is then the
  plain sum over the shared input channel, and the bias row is added to every row of the result.
-/
import proofs.«102493_j43602507989113_1_alg».proof.Proof.Gen.KernelIdeal.Skeleton
import proofs.«102493_j43602507989113_1_alg».proof.Proof.LibRowsProduct
import proofs.«102493_j43602507989113_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.Spec

/-- A `[256, 8192]` block regrouped as `[256, 64, 128]`: entry `(q, g, l)` is entry `(q, 128 g + l)`; read at the
    group and position of channel `k` it is the entry `(q, k)`. -/
theorem regroup_apply {α : Type} (v : S256x8192.Idx → α) (h : S256x8192.ShapeCasts S256x64x128) (q : Fin 256) (k : Fin 8192) :
    shapeCast S256x64x128 v h (ix3 q (group k) (lane k)) = v (ix2 q k) := by
  refine shapeCast_apply v h (ix3 q (group k) (lane k)) (ix2 q k) ?_
  rw [Shape.rowMajor_val_two, Shape.rowMajor_val_three]
  show q.val * 8192 + k.val = (q.val * 64 + k.val / 128) * 128 + k.val % 128
  omega

/-- The inverse regrouping: entry `(q, k)` of a `[256, 64, 128]` array laid back as `[256, 8192]` is its entry at row
    `q`, the group of `k` and the position of `k` in the group. -/
theorem ungroup_apply {α : Type} (v : S256x64x128.Idx → α) (h : S256x64x128.ShapeCasts S256x8192) (q : Fin 256) (k : Fin 8192) :
    shapeCast S256x8192 v h (ix2 q k) = v (ix3 q (group k) (lane k)) := by
  refine shapeCast_apply v h (ix2 q k) (ix3 q (group k) (lane k)) ?_
  rw [Shape.rowMajor_val_two, Shape.rowMajor_val_three]
  show (q.val * 64 + k.val / 128) * 128 + k.val % 128 = q.val * 8192 + k.val
  omega

/-- The scales with a unit axis appended: entry `(q, g, 0)` is entry `(q, g)`. -/
theorem scale_column_apply {α : Type} (v : S256x64.Idx → α) (h : S256x64.ShapeCasts S256x64x1) (q : Fin 256) (g : Fin 64) :
    shapeCast S256x64x1 v h (ix3 q g (0 : Fin 1)) = v (ix2 q g) := by
  refine shapeCast_apply v h (ix3 q g (0 : Fin 1)) (ix2 q g) ?_
  rw [Shape.rowMajor_val_two, Shape.rowMajor_val_three]
  show q.val * 64 + g.val = (q.val * 64 + g.val) * 1 + 0
  omega

/-- One scale per row and group spread over the group's 128 positions. -/
theorem scale_spread_apply {α : Type} (v : S256x64x1.Idx → α) (h : S256x64x1.Broadcasts S256x64x128) (q : Fin 256) (g : Fin 64)
    (l : Fin 128) : broadcastTo S256x64x128 v h (ix3 q g l) = v (ix3 q g (0 : Fin 1)) := by
  refine broadcastTo_apply v h (ix3 q g l) (ix3 q g (0 : Fin 1)) fun ax => ?_
  match ax with
  | ⟨0, _⟩ => rfl
  | ⟨1, _⟩ => rfl
  | ⟨2, _⟩ => rfl

/-- THE BODY'S RESULT AT AN ENTRY: row `p` of the activations against row `q` of the dequantized weight block, plus the
    bias entry of column `q`. -/
theorem pay_apply (v0 : Vec Ideal S256x8192 .f32) (v1 : Vec Ideal S256x64 .f32) (v8 : Vec Ideal S16x8192 .f32)
    (v11 : Vec Ideal S1x256 .f32) (p : Fin 16) (q : Fin 256) :
    k0_pay1 (F := Ideal) v0 v1 v8 v11 (ix2 p q)
      = (∑ k : Fin 8192, v8 (ix2 p k) * (v0 (ix2 q k) * v1 (ix2 q (group k)))) + v11 (ix2 (0 : Fin 1) q) := by
  unfold k0_pay1
  refine (addf_apply _ _ (ix2 p q)).trans ?_
  refine congrArg₂ (· + ·) ?_ ?_
  · refine (Cert.RowsProduct.matmul_nt_apply dot_S16x8192_S256x8192_S16x256_1_1_0_0_n_n_wf none _ _ p q).trans ?_
    refine Finset.sum_congr rfl fun k _ => ?_
    refine congrArg₂ (· * ·) rfl ?_
    refine (truncf_apply _ bitsLt_bf16_f32 (ix2 q k)).trans ?_
    refine (ungroup_apply _ shapeCasts_S256x64x128_S256x8192 q k).trans ?_
    refine (mulf_apply _ _ _).trans ?_
    refine congrArg₂ (· * ·) (regroup_apply v0 shapeCasts_S256x8192_S256x64x128 q k) ?_
    refine (scale_spread_apply _ broadcasts_S256x64x1_S256x64x128 q (group k) (lane k)).trans ?_
    exact scale_column_apply v1 shapeCasts_S256x64_S256x64x1 q (group k)
  · exact broadcastTo_1b_ab_apply v11 broadcasts_S1x256_S16x256 p q

end Cert.KernelIdeal.BlockValue

end
-- ==== Proof.ArrayValue.lean ====
/-
  From the blocks to the whole result array.

  The grid has 32 points. At point `t` the kernel sees all of the activations, rows `256 t … 256 t + 255` of the stored
  weights and of the scales, columns `256 t … 256 t + 255` of the bias row, and writes columns `256 t … 256 t + 255` of
  the result. So entry `(p, q)` of what point `t` writes is the specification's entry `(p, 256 t + q)` of the argument
  arrays, the 32 column blocks tile the result, and the result array ends as the specification of the arguments.
-/
import proofs.«102493_j43602507989113_1_alg».proof.Proof.Gen.KernelIdeal.Value
import proofs.«102493_j43602507989113_1_alg».proof.Proof.BlockValue

noncomputable section

namespace Cert.KernelIdeal.ArrayValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`: the activations always at block `(0, 0)`; the weights and the
    scales at row block `t`; the bias and the result at column block `t`. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 32 := t.isLt

/-- Column (or weight row) `q` of point `t`'s block, in the whole array. -/
def at_point (t : Fin cfg0.N) (q : Fin 256) : Fin 8192 := ⟨t.val * 256 + q.val, by have := point_lt t; have := q.isLt; omega⟩

theorem at_point_val (t : Fin cfg0.N) (q : Fin 256) : (at_point t q).val = t.val * 256 + q.val := rfl

/-! ## The input blocks, read where the point's result needs them -/

/-- The activations' block is the whole array at every point. -/
theorem read_x (c : Dev nD) (t : Fin cfg0.N) (p : Fin 16) (k : Fin 8192) :
    iblk m c 0 t (ix2 p k) = V m c main_arg0 (ix2 p k) := by
  obtain ⟨e0, e1, -⟩ := index_facts t
  show V m c main_arg0 (((cfg0.win 0).blk t).view.emb (ix2 p k)) = V m c main_arg0 (ix2 p k)
  refine congrArg _ (funext fun a => Fin.ext ?_)
  match a with
  | ⟨0, _⟩ => show win0_0.index t (0 : Fin 2) * 16 + 1 * p.val = p.val; omega
  | ⟨1, _⟩ => show win0_0.index t (1 : Fin 2) * 8192 + 1 * k.val = k.val; omega

/-- Row `q` of the weights' block at point `t` is row `256 t + q` of the stored weights. -/
theorem read_w (c : Dev nD) (t : Fin cfg0.N) (q : Fin 256) (k : Fin 8192) :
    iblk m c 1 t (ix2 q k) = V m c main_arg1 (ix2 (at_point t q) k) := by
  obtain ⟨-, -, e2, e3, -⟩ := index_facts t
  show V m c main_arg1 (((cfg0.win 1).blk t).view.emb (ix2 q k)) = V m c main_arg1 (ix2 (at_point t q) k)
  refine congrArg _ (funext fun a => Fin.ext ?_)
  match a with
  | ⟨0, _⟩ => show win0_1.index t (0 : Fin 2) * 256 + 1 * q.val = t.val * 256 + q.val; omega
  | ⟨1, _⟩ => show win0_1.index t (1 : Fin 2) * 8192 + 1 * k.val = k.val; omega

/-- Row `q` of the scales' block at point `t` is row `256 t + q` of the scales. -/
theorem read_s (c : Dev nD) (t : Fin cfg0.N) (q : Fin 256) (g : Fin 64) :
    iblk m c 2 t (ix2 q g) = V m c main_arg2 (ix2 (at_point t q) g) := by
  obtain ⟨-, -, -, -, e4, e5, -⟩ := index_facts t
  show V m c main_arg2 (((cfg0.win 2).blk t).view.emb (ix2 q g)) = V m c main_arg2 (ix2 (at_point t q) g)
  refine congrArg _ (funext fun a => Fin.ext ?_)
  match a with
  | ⟨0, _⟩ => show win0_2.index t (0 : Fin 2) * 256 + 1 * q.val = t.val * 256 + q.val; omega
  | ⟨1, _⟩ => show win0_2.index t (1 : Fin 2) * 64 + 1 * g.val = g.val; omega

/-- Column `q` of the bias block at point `t` is column `256 t + q` of the bias row. -/
theorem read_b (c : Dev nD) (t : Fin cfg0.N) (q : Fin 256) :
    iblk m c 3 t (ix2 (0 : Fin 1) q) = V m c main_arg3 (ix2 (0 : Fin 1) (at_point t q)) := by
  obtain ⟨-, -, -, -, -, -, e6, e7, -⟩ := index_facts t
  show V m c main_arg3 (((cfg0.win 3).blk t).view.emb (ix2 (0 : Fin 1) q)) = V m c main_arg3 (ix2 (0 : Fin 1) (at_point t q))
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = t.val * 256 + q.val; omega

/-! ## What a point writes back -/

/-- WHAT POINT `t` WRITES BACK is block `t` of the specification of the argument arrays. -/
theorem flushed_eq (c : Dev nD) (t : Fin cfg0.N) :
    (dats m 0 c).flushed 4 t = ((cfg0.win 4).blk t).view.read (Elt Ideal)
      (linear (V m c main_arg0) (V m c main_arg1) (V m c main_arg2) (V m c main_arg3)) := by
  rw [Cert.KernelIdeal.Value.flushed4]
  unfold out0_4
  rw [View.canon_unit_zero zero_offsets]
  simp only [View.ld_unit_zero (S := S256x8192) zero_offsets, View.ld_unit_zero (S := S256x64) zero_offsets,
    View.ld_unit_zero (S := S16x8192) zero_offsets, View.ld_unit_zero (S := S1x256) zero_offsets]
  obtain ⟨-, -, -, -, -, -, -, -, e8, e9⟩ := index_facts t
  funext j
  have hj0 : (j 0).val < 16 := (j 0).isLt
  have hj1 : (j 1).val < 256 := (j 1).isLt
  have hin : (cfg0.win 4).xinj (grid0.coords t) j = ix2 (⟨(j 0).val, hj0⟩ : Fin 16) (⟨(j 1).val, hj1⟩ : Fin 256) := by
    funext a; apply Fin.ext
    match a with
    | ⟨0, _⟩ => rfl
    | ⟨1, _⟩ => rfl
  have hout : ((cfg0.win 4).blk t).view.emb j
      = ix2 (⟨(j 0).val, hj0⟩ : Fin 16) (at_point t (⟨(j 1).val, hj1⟩ : Fin 256)) := by
    funext a; apply Fin.ext
    match a with
    | ⟨0, _⟩ => show win0_4.index t (0 : Fin 2) * 16 + 1 * (j 0).val = (j 0).val; omega
    | ⟨1, _⟩ => show win0_4.index t (1 : Fin 2) * 256 + 1 * (j 1).val = t.val * 256 + (j 1).val; omega
  show k0_pay1 (F := Ideal) (iblk m c 1 t) (iblk m c 2 t) (iblk m c 0 t) (iblk m c 3 t) ((cfg0.win 4).xinj (grid0.coords t) j)
    = linear (V m c main_arg0) (V m c main_arg1) (V m c main_arg2) (V m c main_arg3) (((cfg0.win 4).blk t).view.emb j)
  rw [hin, hout, linear_apply]
  refine (BlockValue.pay_apply (iblk m c 1 t) (iblk m c 2 t) (iblk m c 0 t) (iblk m c 3 t) _ _).trans ?_
  refine congrArg₂ (· + ·) (Finset.sum_congr rfl fun k _ => ?_) (read_b m c t _)
  rw [read_x, read_w, read_s]

/-! ## The 32 column blocks tile the result -/

/-- An index of the result is in point `t`'s block iff each coordinate is in the block's range on its axis. -/
theorem mem_blk (t : Fin cfg0.N) (i : S16x8192.Idx) :
    i ∈ ((cfg0.win 4).blk t).view.set ↔ ∀ a : Fin 2, win0_4.index t a * S16x256.size a ≤ (i a).val
      ∧ (i a).val < win0_4.index t a * S16x256.size a + S16x256.size a := by
  show i ∈ ((View.whole main_v0).slice (win0_4.rect t)).set ↔ _
  rw [View.set_slice_whole, Rect.mem_set_unit]
  exact Iff.rfl

/-- Every entry of the result is written: column `o` by point `o / 256`. -/
theorem cover (i : S16x8192.Idx) :
    ∃ t : Fin cfg0.N, (cfg0.win 4).flush t = true ∧ i ∈ ((cfg0.win 4).blk t).view.set := by
  have hi0 : (i 0).val < 16 := (i 0).isLt
  have hi1 : (i 1).val < 8192 := (i 1).isLt
  obtain ⟨t, ht⟩ : ∃ t : Fin cfg0.N, t.val = (i 1).val / 256 :=
    ⟨⟨(i 1).val / 256, by show (i 1).val / 256 < 32; omega⟩, rfl⟩
  obtain ⟨-, -, -, -, -, -, -, -, e8, e9⟩ := index_facts t
  refine ⟨t, flush0_4 t, ?_⟩
  rw [mem_blk]
  intro a
  match a with
  | ⟨0, _⟩ =>
    show win0_4.index t (0 : Fin 2) * 16 ≤ (i 0).val ∧ (i 0).val < win0_4.index t (0 : Fin 2) * 16 + 16
    omega
  | ⟨1, _⟩ =>
    show win0_4.index t (1 : Fin 2) * 256 ≤ (i 1).val ∧ (i 1).val < win0_4.index t (1 : Fin 2) * 256 + 256
    omega

/-! ## The result array, and the run -/

/-- THE RESULT ARRAY after the run is the specification of the argument arrays as launched. -/
theorem final (c : Dev nD) :
    (dats m 0 c).arrAt 4 cfg0.N
      = linear (m ((c : Thread nD τ).loc main_arg0)) (m ((c : Thread nD τ).loc main_arg1))
          (m ((c : Thread nD τ).loc main_arg2)) (m ((c : Thread nD τ).loc main_arg3)) :=
  (dats m 0 c).arrAt_eq_of_cover 4
    (linear (V m c main_arg0) (V m c main_arg1) (V m c main_arg2) (V m c main_arg3))
    (fun t _ => flushed_eq m c t) cover

/-- Every weakly fair execution of the idealized kernel's program terminates with the result array at the
    specification of the arguments and the arguments unchanged. -/
theorem run : θ_run defs (onTc (τ := τ) (main (F := Ideal))) ⟨m, fun _ => 0, ρ⟩ fun r => ∀ c : Dev nD,
      r.2.mem ((c : Thread nD τ).loc main_v0)
          = linear (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference computes the specification.

  The reference regroups the stored weights as `[8192, 64, 128]`, multiplies by the scales spread over each group, lays
  the product back as `[8192, 8192]`, contracts the input channel of the activations against it and adds the bias row
  to every row. Read at an entry `(r, o)`: the regrouping and its inverse cancel, the scale read is the one of row `o`
  and of the channel's group, and the contraction is the sum over the 8192 input channels.
-/
import proofs.«102493_j43602507989113_1_alg».proof.Proof.Gen.ReferenceIdeal.Read
import proofs.«102493_j43602507989113_1_alg».proof.Proof.Spec

noncomputable section

namespace Cert.ReferenceIdeal.RefValue

open Cert.ReferenceIdeal Cert.ReferenceIdeal.Read Idealize.ShloMosaic Idealize.ShloMosaic.ValueIdx Cert.Spec

/-- Regrouping `(o, k)` into (row, group, position) and back gives `(o, k)`. -/
theorem weight_index (o : Fin 8192) (k : Fin 8192) : idx_main_v0 (idx_main_v4 (ix2 o k)) = ix2 o k := by
  funext a; apply Fin.ext
  have ho := o.isLt
  have hk := k.isLt
  match a with
  | ⟨0, _⟩ =>
    show (((o.val * 8192 + k.val) / 8192 * 64 + (o.val * 8192 + k.val) / 128 % 64) * 128 + (o.val * 8192 + k.val) % 128) / 8192 = o.val
    omega
  | ⟨1, _⟩ =>
    show (((o.val * 8192 + k.val) / 8192 * 64 + (o.val * 8192 + k.val) / 128 % 64) * 128 + (o.val * 8192 + k.val) % 128) % 8192 = k.val
    omega

/-- The scale the regrouped entry `(o, k)` is multiplied by is the one of row `o` and of the group of `k`. -/
theorem scale_index (o : Fin 8192) (k : Fin 8192) : idx_main_v1 (idx_main_v2 (idx_main_v4 (ix2 o k))) = ix2 o (group k) := by
  funext a; apply Fin.ext
  have ho := o.isLt
  have hk := k.isLt
  match a with
  | ⟨0, _⟩ =>
    show (o.val * 8192 + k.val) / 8192 = o.val
    omega
  | ⟨1, _⟩ =>
    show (o.val * 8192 + k.val) / 128 % 64 = k.val / 128
    omega

/-- The operands of the contraction at output `(r, o)` and channel `k` are `x (r, k)` and the dequantized `(o, k)`. -/
theorem lhs_index (r : Fin 16) (o : Fin 8192) (k : Fin 8192) : lidx_main_v5 (ix2 r o) k = ix2 r k := by
  funext a; apply Fin.ext
  match a with
  | ⟨0, _⟩ => rfl
  | ⟨1, _⟩ => rfl

theorem rhs_index (r : Fin 16) (o : Fin 8192) (k : Fin 8192) : ridx_main_v5 (ix2 r o) k = ix2 o k := by
  funext a; apply Fin.ext
  match a with
  | ⟨0, _⟩ => rfl
  | ⟨1, _⟩ => rfl

/-- The bias row broadcast over the 16 rows reads its entry of column `o`. -/
theorem bias_index (r : Fin 16) (o : Fin 8192) : idx_main_v6 (ix2 r o) = ix2 (0 : Fin 1) o := by
  funext a; apply Fin.ext
  match a with
  | ⟨0, _⟩ => rfl
  | ⟨1, _⟩ => rfl

/-- THE REFERENCE'S RESULT is the specification of the four argument arrays. -/
theorem result_eq (x0 : (⟨S16x8192, .f32⟩ : BufTy).Contents (Elt Ideal)) (x1 : (⟨S8192x8192, .f32⟩ : BufTy).Contents (Elt Ideal))
    (x2 : (⟨S8192x64, .f32⟩ : BufTy).Contents (Elt Ideal)) (x3 : (⟨S1x8192, .f32⟩ : BufTy).Contents (Elt Ideal)) :
    val_main_v7 (F := Ideal) x0 x1 x2 x3 = linear x0 x1 x2 x3 := by
  funext i
  obtain ⟨r, o, rfl⟩ : ∃ (r : Fin 16) (o : Fin 8192), i = ix2 r o := ⟨i 0, i 1, eq_ix2 i⟩
  rw [val_main_v7_apply, val_main_v5_apply, val_main_v6_apply, linear_apply, bias_index]
  refine congrArg₂ (· + ·) (Finset.sum_congr rfl fun k _ => ?_) rfl
  rw [lhs_index, rhs_index, val_main_v4_apply, val_main_v3_apply, val_main_v0_apply, val_main_v2_apply, val_main_v1_apply,
    weight_index, scale_index]
  rfl

end Cert.ReferenceIdeal.RefValue

end
-- ==== Proof.lean ====
/-
  A linear layer with group-wise scaled weights: the kernel against its reference, on the extended reals.

  Both programs take activations `x : [16, 8192]`, stored weights `w : [8192, 8192]`, scales `s : [8192, 64]` (one per
  output row and per group of 128 consecutive input channels), a bias row `b : [1, 8192]` and an integer table that
  neither reads, and return

      y (r, o) = (∑ k, x (r, k) · (w (o, k) · s (o, k / 128))) + b (0, o).

  The reference forms the scaled weights as one `[8192, 8192]` array and contracts the input channel once. The kernel
  walks 32 grid points; at point `t` it scales rows `256 t … 256 t + 255` of the weights, multiplies the activations by
  their transpose in the matrix unit from a zero accumulator, adds the matching 256 bias entries and writes columns
  `256 t … 256 t + 255` of the result. Its two changes of float format on the way into the matrix unit are the identity
  on exact values, so the idealization rewrote nothing and `preserves` is trivial.

  The two results are equal term by term: the same products, summed over the same 8192 channels, plus the same bias
  entry. No distributive or cancellation law is used, so the finiteness of the inputs is never opened.

  `Proof/Spec.lean` states the function; `Proof/RefValue.lean` reads the reference's result as it; `Proof/BlockValue.lean`
  reads the kernel body's result at an entry of a block; `Proof/ArrayValue.lean` places the 32 blocks in the result
  array. The three frames are the generated ones (the reference's is its run with the result dropped).
-/
import proofs.«102493_j43602507989113_1_alg».proof.Defs
import proofs.«102493_j43602507989113_1_alg».proof.Proof.Gen.Kernel
import proofs.«102493_j43602507989113_1_alg».proof.Proof.Gen.Kernel.Skeleton
import proofs.«102493_j43602507989113_1_alg».proof.Proof.Gen.Kernel.Launch
import proofs.«102493_j43602507989113_1_alg».proof.Proof.Gen.Kernel.Points
import proofs.«102493_j43602507989113_1_alg».proof.Proof.Gen.Kernel.Frame
import proofs.«102493_j43602507989113_1_alg».proof.Proof.Gen.KernelIdeal
import proofs.«102493_j43602507989113_1_alg».proof.Proof.Gen.KernelIdeal.Skeleton
import proofs.«102493_j43602507989113_1_alg».proof.Proof.Gen.KernelIdeal.Launch
import proofs.«102493_j43602507989113_1_alg».proof.Proof.Gen.KernelIdeal.Points
import proofs.«102493_j43602507989113_1_alg».proof.Proof.Gen.KernelIdeal.Frame
import proofs.«102493_j43602507989113_1_alg».proof.Proof.Gen.ReferenceIdeal
import proofs.«102493_j43602507989113_1_alg».proof.Proof.Gen.Pre_finite_inputs
import proofs.«102493_j43602507989113_1_alg».proof.Proof.Gen.KernelIdeal.Value
import proofs.«102493_j43602507989113_1_alg».proof.Proof.Gen.ReferenceIdeal.Run
import proofs.«102493_j43602507989113_1_alg».proof.Proof.Gen.ReferenceIdeal.Read
import proofs.«102493_j43602507989113_1_alg».proof.Proof.ArrayValue
import proofs.«102493_j43602507989113_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments, the idealized kernel's result array and the idealized reference's are
    both the specification of the arguments: the kernel's by placing its 32 column blocks, the reference's by reading
    its operations at an entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
